-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x14336 : Shape := ⟨2, ![4096, 14336]⟩
abbrev S14336 : Shape := ⟨1, ![14336]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S14336 : S_.BroadcastsInDim S14336 (![] : Fin 0 → Fin S14336.rank)
  reducesTo_S14336_S_d0 : S14336.ReducesTo [0] S_

variable [Facts]

def fn_part1 {F : FTy → Type} [FloatOps F] (main_v13 : IVec S_ 1) (main_v16 : IVec S14336 1) : IVec S_ 1 :=
  let main_c_5 : IVec S_ 1 := constantI S_ 1 1#1
  let main_v17 : IVec S_ 1 := (fun x v => Host.reduce IntOp.andi x v reducesTo_S14336_S_d0 h_S_) main_v16 main_c_5
  let main_v18 : IVec S_ 1 := andi main_v13 main_v17
  main_v18

def fn {F : FTy → Type} [FloatOps F] (main_arg0 : FVec F S64x4096 .f32) (main_arg1 : IVec S4096x14336 32) (main_arg2 : FVec F S14336 .f32) (main_arg3 : FVec F S14336 .f32) (main_arg4 : FVec F S14336 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S14336 .f32 := Host.absf main_arg2
  let main_cst_0 : FVec F S_ .f32 := constant S_ .f32 0x7F800000#32
  let main_v5 : FVec F S14336 .f32 := broadcastInDim S14336 ![] bcast_S_S14336 main_cst_0
  let main_v6 : IVec S14336 1 := cmpf .olt main_v4 main_v5
  let main_c_1 : IVec S_ 1 := constantI S_ 1 1#1
  let main_v7 : IVec S_ 1 := (fun x v => Host.reduce IntOp.andi x v reducesTo_S14336_S_d0 h_S_) main_v6 main_c_1
  let main_v8 : IVec S_ 1 := andi main_v3 main_v7
  let main_v9 : FVec F S14336 .f32 := Host.absf main_arg3
  let main_cst_2 : FVec F S_ .f32 := constant S_ .f32 0x7F800000#32
  let main_v10 : FVec F S14336 .f32 := broadcastInDim S14336 ![] bcast_S_S14336 main_cst_2
  let main_v11 : IVec S14336 1 := cmpf .olt main_v9 main_v10
  let main_c_3 : IVec S_ 1 := constantI S_ 1 1#1
  let main_v12 : IVec S_ 1 := (fun x v => Host.reduce IntOp.andi x v reducesTo_S14336_S_d0 h_S_) main_v11 main_c_3
  let main_v13 : IVec S_ 1 := andi main_v8 main_v12
  let main_v14 : FVec F S14336 .f32 := Host.absf main_arg4
  let main_cst_4 : FVec F S_ .f32 := constant S_ .f32 0x7F800000#32
  let main_v15 : FVec F S14336 .f32 := broadcastInDim S14336 ![] bcast_S_S14336 main_cst_4
  let main_v16 : IVec S14336 1 := cmpf .olt main_v14 main_v15
  fn_part1 (F := F) main_v13 main_v16
-- ==== Kernel.lean ====
abbrev S64x4096 : Shape := ⟨2, ![64, 4096]⟩
abbrev S4096x14336 : Shape := ⟨2, ![4096, 14336]⟩
abbrev S14336 : Shape := ⟨1, ![14336]⟩
abbrev S_ : Shape := ⟨0, ![]⟩
abbrev S64 : Shape := ⟨1, ![64]⟩
abbrev S64x1 : Shape := ⟨2, ![64, 1]⟩
abbrev S1x14336 : Shape := ⟨2, ![1, 14336]⟩
abbrev S64x14336 : Shape := ⟨2, ![64, 14336]⟩
abbrev S4096x512 : Shape := ⟨2, ![4096, 512]⟩
abbrev S1x512 : Shape := ⟨2, ![1, 512]⟩
abbrev S64x512 : Shape := ⟨2, ![64, 512]⟩

abbrev nBuf : Space → Nat
  | .hbm => 14
  | .vmem => 12
  | .smem => 0
  | _ => 0

abbrev bufTy : (tb : Table) → Fin (tcTables nBuf tb) → BufTy
  | .hbm, ⟨0, _⟩ => ⟨S64x4096, .f32⟩
  | .hbm, ⟨1, _⟩ => ⟨S4096x14336, .i32⟩
  | .hbm, ⟨2, _⟩ => ⟨S14336, .f32⟩
  | .hbm, ⟨3, _⟩ => ⟨S14336, .f32⟩
  | .hbm, ⟨4, _⟩ => ⟨S14336, .f32⟩
  | .hbm, ⟨5, _⟩ => ⟨S64x4096, .bf16⟩
  | .hbm, ⟨6, _⟩ => ⟨S_, .f32⟩
  | .hbm, ⟨7, _⟩ => ⟨S64, .f32⟩
  | .hbm, ⟨8, _⟩ => ⟨S64x1, .f32⟩
  | .hbm, ⟨9, _⟩ => ⟨S14336, .f32⟩
  | .hbm, ⟨10, _⟩ => ⟨S1x14336, .f32⟩
  | .hbm, ⟨11, _⟩ => ⟨S1x14336, .f32⟩
  | .hbm, ⟨12, _⟩ => ⟨S1x14336, .f32⟩
  | .hbm, ⟨13, _⟩ => ⟨S64x14336, .f32⟩
  | .local _ .vmem, ⟨0, _⟩ => ⟨S64x4096, .bf16⟩
  | .local _ .vmem, ⟨1, _⟩ => ⟨S4096x512, .i32⟩
  | .local _ .vmem, ⟨2, _⟩ => ⟨S4096x512, .i32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S64x1, .f32⟩
  | .local _ .vmem, ⟨10, _⟩ => ⟨S64x512, .f32⟩
  | .local _ .vmem, ⟨11, _⟩ => ⟨S64x512, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  reducesTo_S64x4096_S64_d1 : S64x4096.ReducesTo [1] S64
  h_S_ : 0 < S_.numel
  bcast_S64_S64x1_0 : S64.BroadcastsInDim S64x1 (![0] : Fin 1 → Fin S64x1.rank)
  shapeCasts_S14336_S1x14336 : S14336.ShapeCasts S1x14336
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x512 : S64x1.Broadcasts S64x512
  inb_S64x512_S64x512_0_0 : ∀ a, (![0, 0] : Fin 2 → Nat) a + S64x512.size a ≤ S64x512.size a
  h_S64x512 : 0 < S64x512.numel
  dot_S64x4096_S4096x512_S64x512_1_0_0_1_n_n_wf : DotDims.WF S64x4096 S4096x512 S64x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .bf16 = 32 ∨ (Rect.block (s := S64x4096) S64x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x14336.size a
  hwx0_1 : ∀ i : grid0.Coords, EltTy.bits .i32 = 32 ∨ (Rect.block (s := S4096x14336) S4096x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x14336.size a
  hwx0_2 : ∀ i : grid0.Coords, EltTy.bits .f32 = 32 ∨ (Rect.block (s := S1x14336) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x14336.size a
  hwx0_3 : ∀ i : grid0.Coords, EltTy.bits .f32 = 32 ∨ (Rect.block (s := S1x14336) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x14336.size a
  hwx0_4 : ∀ i : grid0.Coords, EltTy.bits .f32 = 32 ∨ (Rect.block (s := S1x14336) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S64x14336.size a
  hwx0_6 : ∀ i : grid0.Coords, EltTy.bits .f32 = 32 ∨ (Rect.block (s := S64x14336) S64x512.size (cc0_transform_6 i) (hinb0_6 i)).WholeWords (EltTy.packing .f32)

variable [Facts₀]

def dot_S64x4096_S4096x512_S64x512_1_0_0_1_n_n : DotDims S64x4096 S4096x512 S64x512 where
  lhsContracting := [1]
  rhsContracting := [0]
  lhsNonContracting := [0]
  rhsNonContracting := [1]
  lhsBatch := []
  rhsBatch := []
  wf := dot_S64x4096_S4096x512_S64x512_1_0_0_1_n_n_wf

abbrev win0_0 : Pipeline.Window sig grid0 :=
  Pipeline.Window.ofSpec (Memref.whole main_v0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x4096 : Shape := ⟨2, ![64, 4096]⟩
abbrev S4096x14336 : Shape := ⟨2, ![4096, 14336]⟩
abbrev S14336 : Shape := ⟨1, ![14336]⟩
abbrev S1x14336 : Shape := ⟨2, ![1, 14336]⟩
abbrev S64x14336 : Shape := ⟨2, ![64, 14336]⟩

abbrev nBuf : Space → Nat
  | .hbm => 16
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x14336, .i32⟩
  | .hbm, ⟨2, _⟩ => ⟨S14336, .f32⟩
  | .hbm, ⟨3, _⟩ => ⟨S14336, .f32⟩
  | .hbm, ⟨4, _⟩ => ⟨S14336, .f32⟩
  | .hbm, ⟨5, _⟩ => ⟨S4096x14336, .f32⟩
  | .hbm, ⟨6, _⟩ => ⟨S1x14336, .f32⟩
  | .hbm, ⟨7, _⟩ => ⟨S4096x14336, .f32⟩
  | .hbm, ⟨8, _⟩ => ⟨S4096x14336, .f32⟩
  | .hbm, ⟨9, _⟩ => ⟨S1x14336, .f32⟩
  | .hbm, ⟨10, _⟩ => ⟨S4096x14336, .f32⟩
  | .hbm, ⟨11, _⟩ => ⟨S4096x14336, .f32⟩
  | .hbm, ⟨12, _⟩ => ⟨S64x14336, .f32⟩
  | .hbm, ⟨13, _⟩ => ⟨S1x14336, .f32⟩
  | .hbm, ⟨14, _⟩ => ⟨S64x14336, .f32⟩
  | .hbm, ⟨15, _⟩ => ⟨S64x14336, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S14336_S1x14336_1 : S14336.BroadcastsInDim S1x14336 (![1] : Fin 1 → Fin S1x14336.rank)
  bcast_S1x14336_S4096x14336_0_1 : S1x14336.BroadcastsInDim S4096x14336 (![0, 1] : Fin 2 → Fin S4096x14336.rank)
  bcast_S1x14336_S64x14336_0_1 : S1x14336.BroadcastsInDim S64x14336 (![0, 1] : Fin 2 → Fin S64x14336.rank)
  dot_S64x4096_S4096x14336_S64x14336_1_0_0_1_n_n_wf : DotDims.WF S64x4096 S4096x14336 S64x14336 [1] [0] [0] [1] [] []

variable [Facts₀]

def dot_S64x4096_S4096x14336_S64x14336_1_0_0_1_n_n : DotDims S64x4096 S4096x14336 S64x14336 where
  lhsContracting := [1]
  rhsContracting := [0]
  lhsNonContracting := [0]
  rhsNonContracting := [1]
  lhsBatch := []
  rhsBatch := []
  wf := dot_S64x4096_S4096x14336_S64x14336_1_0_0_1_n_n_wf

class Facts : Prop extends Facts₀ where

variable [Facts]
-- ==== Proof.DequantLaw.lean ====
/-
  Weight-only quantized matrix product with a per-column affine dequantization, as two functions of the argument
  arrays, and the law that makes them one.

  With `W k n` the integer weight read as a real, the reference computes, at row `r` and column `n`,
      ∑ₖ x r k · ((W k n + offset n) · scale n) + bias n,
  while the kernel pulls the column's affine map out of the contraction:
      (∑ₖ x r k · W k n) · scale n + (∑ₖ x r k) · (scale n · offset n) + bias n.
  Over the reals these agree by distributivity of the product over the finite sum. On the extended reals
  distributivity fails at the infinities, so the law is stated for finite `x`, `scale`, `offset` (the weight is an
  integer, hence finite; `bias` is only added last and may be anything).
-/
import Idealize.ShloMosaic.PureOps.Ideal
import Idealize.ShloMosaic.Lib.ValueIdx

noncomputable section

namespace Cert.DequantGemm

open Idealize.ShloMosaic Idealize.ShloMosaic.ValueIdx

/-- The coercion of the reals into the extended reals commutes with finite sums. -/
theorem coe_finset_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- THE LAW. For finite `x k`, `s`, `o` and real weights `w k`: the affine map `(· + o) · s` of the weights comes
    out of the contraction with `x` as a scale of the plain contraction plus the sum of `x` times `s · o`. -/
theorem affine_out_of_sum {n : ℕ} (x : Fin n → EReal) (w : Fin n → ℝ) (s o b : EReal)
    (hx : ∀ k, ∃ r : ℝ, x k = (r : EReal)) (hs : ∃ r : ℝ, s = (r : EReal)) (ho : ∃ r : ℝ, o = (r : EReal)) :
    (∑ k, x k * (w k : EReal)) * s + (∑ k, x k) * (s * o) + b
      = (∑ k, x k * (((w k : EReal) + o) * s)) + b := by
  choose x' hx' using hx
  obtain ⟨s', rfl⟩ := hs
  obtain ⟨o', rfl⟩ := ho
  obtain rfl : x = fun k => (x' k : EReal) := funext hx'
  congr 1
  simp only [← EReal.coe_mul, ← EReal.coe_add, ← coe_finset_sum]
  congr 1
  rw [Finset.sum_mul, Finset.sum_mul, ← Finset.sum_add_distrib]
  exact Finset.sum_congr rfl fun k _ => by ring

/-- The integer weight at `(k, n)`, read signed, as an extended real. -/
abbrev wt (w : (⟨2, ![4096, 14336]⟩ : Shape).Idx → BitVec 32) (k : Fin 4096) (n : Fin 14336) : EReal :=
  (((w (ix2 k n)).toInt : ℝ) : EReal)

/-- The kernel's arrangement at row `r`, column `n`. -/
def kerAt (x : (⟨2, ![64, 4096]⟩ : Shape).Idx → EReal) (w : (⟨2, ![4096, 14336]⟩ : Shape).Idx → BitVec 32)
    (s o b : (⟨1, ![14336]⟩ : Shape).Idx → EReal) (r : Fin 64) (n : Fin 14336) : EReal :=
  (∑ k : Fin 4096, x (ix2 r k) * wt w k n) * s (ix1 n) + (∑ k : Fin 4096, x (ix2 r k)) * (s (ix1 n) * o (ix1 n)) + b (ix1 n)

/-- The reference's arrangement at row `r`, column `n`. -/
def refAt (x : (⟨2, ![64, 4096]⟩ : Shape).Idx → EReal) (w : (⟨2, ![4096, 14336]⟩ : Shape).Idx → BitVec 32)
    (s o b : (⟨1, ![14336]⟩ : Shape).Idx → EReal) (r : Fin 64) (n : Fin 14336) : EReal :=
  (∑ k : Fin 4096, x (ix2 r k) * ((wt w k n + o (ix1 n)) * s (ix1 n))) + b (ix1 n)

/-- The whole result array in the kernel's arrangement … -/
def kerOut (x : (⟨2, ![64, 4096]⟩ : Shape).Idx → EReal) (w : (⟨2, ![4096, 14336]⟩ : Shape).Idx → BitVec 32)
    (s o b : (⟨1, ![14336]⟩ : Shape).Idx → EReal) : (⟨2, ![64, 14336]⟩ : Shape).Idx → EReal :=
  fun i => kerAt x w s o b (i 0) (i 1)

/-- … and in the reference's. -/
def refOut (x : (⟨2, ![64, 4096]⟩ : Shape).Idx → EReal) (w : (⟨2, ![4096, 14336]⟩ : Shape).Idx → BitVec 32)
    (s o b : (⟨1, ![14336]⟩ : Shape).Idx → EReal) : (⟨2, ![64, 14336]⟩ : Shape).Idx → EReal :=
  fun i => refAt x w s o b (i 0) (i 1)

/-- On finite activations, scales and offsets the two arrangements are the same array. -/
theorem kerOut_eq_refOut (x : (⟨2, ![64, 4096]⟩ : Shape).Idx → EReal) (w : (⟨2, ![4096, 14336]⟩ : Shape).Idx → BitVec 32)
    (s o b : (⟨1, ![14336]⟩ : Shape).Idx → EReal)
    (hx : ∀ i, ∃ r : ℝ, x i = (r : EReal)) (hs : ∀ i, ∃ r : ℝ, s i = (r : EReal)) (ho : ∀ i, ∃ r : ℝ, o i = (r : EReal)) :
    kerOut x w s o b = refOut x w s o b :=
  funext fun i => affine_out_of_sum (fun k => x (ix2 (i 0) k)) (fun k => ((w (ix2 k (i 1))).toInt : ℝ)) _ _ _
    (fun k => hx _) (hs _) (ho _)

end Cert.DequantGemm

end
-- ==== Proof.FiniteInputs.lean ====
/-
  What the precondition gives: every entry of the activations, the scales, the offsets and the biases is a real
  number. The precondition is the conjunction of four tests "every |v| is below +∞", one per float argument; an
  extended real whose absolute value max(v, −v) is strictly below +∞ is neither infinity.
-/
import proofs.«142768_j51453708206361_2_alg».proof.Pre_finite_inputs
import proofs.«142768_j51453708206361_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.DequantGemm

open Idealize.ShloMosaic Idealize.ShloMosaic.ValueIdx Cert.Pre_finite_inputs

/-- The scalar shape has one index. -/
instance : Subsingleton S_.Idx := ⟨fun a b => funext fun d => d.elim0⟩

/-- The word `0x7F800000` is +∞. -/
theorem ofBits_inf : Ideal.ofBits .f32 0x7F800000#32 = (⊤ : EReal) := by
  simp [Ideal.ofBits, Ideal.ieee]

/-- An extended real whose absolute value is strictly below +∞ is a real. -/
theorem real_of_abs_lt_top (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- Under the precondition every activation, scale, offset and bias is a real number. -/
theorem finite_of_pre (a0 : FVec Ideal S64x4096 .f32) (a1 : IVec S4096x14336 32) (a2 a3 a4 : FVec Ideal S14336 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) := by
  have h0 := congrFun h ix0
  dsimp only [Cert.Pre_finite_inputs.fn, Cert.Pre_finite_inputs.fn_part1] at h0
  obtain ⟨h123, h4⟩ := IntOp.andi_eq_one.mp h0
  obtain ⟨h12, h3⟩ := IntOp.andi_eq_one.mp h123
  obtain ⟨h1, h2⟩ := IntOp.andi_eq_one.mp h12
  exact ⟨fun i => real_of_abs_lt_top _ (Host.reduce_andi_all _ _ _ _ ix0 h1 i),
    fun i => real_of_abs_lt_top _ (Host.reduce_andi_all _ _ _ _ ix0 h2 i),
    fun i => real_of_abs_lt_top _ (Host.reduce_andi_all _ _ _ _ ix0 h3 i),
    fun i => real_of_abs_lt_top _ (Host.reduce_andi_all _ _ _ _ ix0 h4 i)⟩

end Cert.DequantGemm

end
-- ==== Proof.RefReads.lean ====
/-
  The reference program's result, read at an index: the contraction over `k` of activation `(r, k)` with the
  dequantized weight `(W k n + offset n) · scale n`, plus `bias n` — the reference's arrangement `refOut`.
  The vectors of per-column parameters reach the matrix through two broadcasts each (to one row, then to every row),
  which read back the vector's entry at the column.
-/
import proofs.«142768_j51453708206361_2_alg».proof.Proof.Gen.ReferenceIdeal.Read
import proofs.«142768_j51453708206361_2_alg».proof.Proof.DequantLaw

noncomputable section

namespace Cert.DequantGemm

open Idealize.ShloMosaic Idealize.ShloMosaic.ValueIdx Cert.ReferenceIdeal Cert.ReferenceIdeal.Read

/-- The dequantized weight at `(k, n)`: the integer weight plus the column's offset, times the column's scale. -/
theorem deq_at (x1 : IVec S4096x14336 32) (x2 x3 : FVec Ideal S14336 .f32) (k : Fin 4096) (n : Fin 14336) :
    val_main_v6 (F := Ideal) x1 x2 x3 (ix2 k n) = (wt x1 k n + x3 (ix1 n)) * x2 (ix1 n) := by
  have eo : idx_main_v1 (idx_main_v2 (ix2 k n)) = ix1 n := funext fun a => Fin.ext (by
    match a with | ⟨0, _⟩ => rfl)
  have es : idx_main_v4 (idx_main_v5 (ix2 k n)) = ix1 n := funext fun a => Fin.ext (by
    match a with | ⟨0, _⟩ => rfl)
  rw [val_main_v6_apply, val_main_v3_apply, val_main_v0_apply, val_main_v2_apply, val_main_v1_apply, val_main_v5_apply,
    val_main_v4_apply, eo, es]
  rfl

/-- The reference's result array is `refOut` of the argument arrays. -/
theorem ref_eq_refOut (x0 : FVec Ideal S64x4096 .f32) (x1 : IVec S4096x14336 32) (x2 x3 x4 : FVec Ideal S14336 .f32) :
    val_main_v10 (F := Ideal) x0 x1 x2 x3 x4 = refOut x0 x1 x2 x3 x4 := by
  funext i
  obtain ⟨r, n, rfl⟩ : ∃ (r : Fin 64) (n : Fin 14336), i = ix2 r n := ⟨i 0, i 1, eq_ix2 i⟩
  show val_main_v10 (F := Ideal) x0 x1 x2 x3 x4 (ix2 r n) = refAt x0 x1 x2 x3 x4 r n
  have eL : ∀ k, lidx_main_v7 (ix2 r n) k = ix2 r k := fun k => funext fun a => Fin.ext (by
    match a with | ⟨0, _⟩ => rfl | ⟨1, _⟩ => rfl)
  have eR : ∀ k, ridx_main_v7 (ix2 r n) k = ix2 k n := fun k => funext fun a => Fin.ext (by
    match a with | ⟨0, _⟩ => rfl | ⟨1, _⟩ => rfl)
  have eb : idx_main_v8 (idx_main_v9 (ix2 r n)) = ix1 n := funext fun a => Fin.ext (by
    match a with | ⟨0, _⟩ => rfl)
  unfold refAt
  rw [val_main_v10_apply, val_main_v7_apply, val_main_v9_apply, val_main_v8_apply, eb]
  refine congrArg (· + x4 (ix1 n)) (Finset.sum_congr rfl fun k _ => ?_)
  rw [eL, eR, deq_at]

end Cert.DequantGemm

end
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.KernelBlock.lean ====
/-
  The kernel body's one stored value, read at row `p` and column `q` of the block: the contraction of row `p` of the
  activations with column `q` of the integer weight block, scaled by the column's scale, plus the row's activation sum
  times the column's fused scale·offset, plus the column's bias.
-/
import proofs.«142768_j51453708206361_2_alg».proof.Proof.Gen.KernelIdeal.Skeleton
import proofs.«142768_j51453708206361_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.DequantGemm

open Idealize.ShloMosaic Idealize.ShloMosaic.ValueIdx Cert.KernelIdeal Cert.KernelIdeal.Gen

/-- The left operand's row coordinate at output index `j` is `j`'s row … -/
theorem dotK_lhs_row (j : S64x512.Idx) (κ : (dot_S64x4096_S4096x512_S64x512_1_0_0_1_n_n).contr.Idx) :
    ((dot_S64x4096_S4096x512_S64x512_1_0_0_1_n_n).lhsIdx j κ 0).val = (j 0).val := by
  unfold DotDims.lhsIdx
  rw [dif_neg (show ¬(0 : Fin S64x4096.rank) ∈ (dot_S64x4096_S4096x512_S64x512_1_0_0_1_n_n).lhsBatch by decide),
    dif_pos (show (0 : Fin S64x4096.rank) ∈ (dot_S64x4096_S4096x512_S64x512_1_0_0_1_n_n).lhsNonContracting by decide)]
  rfl

/-- … and the right operand's column coordinate is `j`'s column. -/
theorem dotK_rhs_col (j : S64x512.Idx) (κ : (dot_S64x4096_S4096x512_S64x512_1_0_0_1_n_n).contr.Idx) :
    ((dot_S64x4096_S4096x512_S64x512_1_0_0_1_n_n).rhsIdx j κ 1).val = (j 1).val := by
  unfold DotDims.rhsIdx
  rw [dif_neg (show ¬(1 : Fin S4096x512.rank) ∈ (dot_S64x4096_S4096x512_S64x512_1_0_0_1_n_n).rhsBatch by decide),
    dif_pos (show (1 : Fin S4096x512.rank) ∈ (dot_S64x4096_S4096x512_S64x512_1_0_0_1_n_n).rhsNonContracting by decide)]
  rfl

/-- The matrix product into the zero accumulator, at `(p, q)`: the sum over the 4096 contraction positions of the
    activation `(p, k)` times the weight `(k, q)`. -/
theorem matmul_at (a : FVec Ideal S64x4096 .bf16) (b : FVec Ideal S4096x512 .bf16) (p : Fin 64) (q : Fin 512) :
    matmul dot_S64x4096_S4096x512_S64x512_1_0_0_1_n_n none a b (constant S64x512 .f32 0x00000000#32) (ix2 p q)
      = ∑ k : Fin 4096, a (ix2 p k) * b (ix2 k q) := by
  simp only [matmul]
  rw [Ideal.matmul_constant_zero_apply, ← Equiv.sum_comp (contrEquiv1 dot_S64x4096_S4096x512_S64x512_1_0_0_1_n_n 4096 rfl rfl).symm]
  refine Finset.sum_congr rfl fun k _ => ?_
  have hk := contrEquiv1_symm_val dot_S64x4096_S4096x512_S64x512_1_0_0_1_n_n 4096 rfl rfl k
  have el : (dot_S64x4096_S4096x512_S64x512_1_0_0_1_n_n).lhsIdx (ix2 p q) ((contrEquiv1 dot_S64x4096_S4096x512_S64x512_1_0_0_1_n_n 4096 rfl rfl).symm k) = ix2 p k :=
    funext fun ax => Fin.ext (by
      match ax with
      | ⟨0, _⟩ => exact dotK_lhs_row _ _
      | ⟨1, _⟩ => exact ((dot_S64x4096_S4096x512_S64x512_1_0_0_1_n_n).lhsIdx_val_of_single rfl _ _).trans hk)
  have er : (dot_S64x4096_S4096x512_S64x512_1_0_0_1_n_n).rhsIdx (ix2 p q) ((contrEquiv1 dot_S64x4096_S4096x512_S64x512_1_0_0_1_n_n 4096 rfl rfl).symm k) = ix2 k q :=
    funext fun ax => Fin.ext (by
      match ax with
      | ⟨0, _⟩ => exact ((dot_S64x4096_S4096x512_S64x512_1_0_0_1_n_n).rhsIdx_val_of_single rfl _ _).trans hk
      | ⟨1, _⟩ => exact dotK_rhs_col _ _)
  rw [el, er]

/-- The body's stored value at `(p, q)` of the block. -/
theorem pay_at (x0 : Vec Ideal S64x4096 .bf16) (x1 : Vec Ideal S4096x512 .i32) (x2 x3 x4 : Vec Ideal S1x512 .f32)
    (x5 : Vec Ideal S64x1 .f32) (p : Fin 64) (q : Fin 512) :
    k0_pay1 (F := Ideal) x0 x1 x2 x5 x3 x4 (ix2 p q)
      = (∑ k : Fin 4096, x0 (ix2 p k) * (((x1 (ix2 k q)).toInt : ℝ) : EReal)) * x2 (ix2 (0 : Fin 1) q)
        + x5 (ix2 p (0 : Fin 1)) * x3 (ix2 (0 : Fin 1) q) + x4 (ix2 (0 : Fin 1) q) := by
  unfold k0_pay1
  rw [addf_apply, addf_apply, mulf_apply, mulf_apply, matmul_at]
  simp only [shapeCast_self]
  rw [broadcastTo_1b_ab_apply, broadcastTo_1b_ab_apply, broadcastTo_1b_ab_apply,
    Cert.WeightUpdate.Layout.broadcastTo_a1_ab_apply]
  rfl

end Cert.DequantGemm

end
-- ==== Proof.LibHostRowReads.lean ====
/-
  Three host operations on matrices, read at an index given by coordinates.

  * a host sum over the columns of an `[a, n]` array of extended reals, read at row `p`, is the initial value plus the
    sum over `k : Fin n` of the entries `(p, k)`;
  * an `[a]` vector placed as the column `[a, 1]` by `broadcast_in_dim` along axis 0 holds, at `(p, u)`, entry `p`;
  * an `[a, n]` array padded with extra rows BELOW (no low padding, no interior padding, columns untouched) holds, at
    a row that is one of the operand's, the operand's entry.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.HostRowReads

open Idealize.ShloMosaic Idealize.ShloMosaic.ValueIdx

/-- A host sum over the columns, read at row `p`: the initial value plus that row's entries summed. -/
theorem hostReduceAdd_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

variable {α : Type}

/-- A vector placed as a column: at `(p, u)` it holds the vector's entry `p`. -/
theorem broadcastInDim_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v _ _ fun ax => by
    match ax with
    | ⟨0, _⟩ =>
      show p.val = if a = 1 then 0 else p.val
      split
      · have := p.isLt; omega
      · rfl

/-- Rows appended below: at a row `c'` that is the operand's row `c`, the padded array holds the operand's entry. -/
theorem pad_rows_below_apply {a a' n e : ℕ} (x : (⟨2, ![a, n]⟩ : Shape).Idx → α) {u : Shape} (v : u.Idx → α)
    (h : (⟨2, ![a, n]⟩ : Shape).Pads (![0, 0] : Fin 2 → Nat) ![e, 0] ![0, 0] ⟨2, ![a', n]⟩) (hu : 0 < u.numel)
    (c : Fin a) (c' : Fin a') (hc : c'.val = c.val) (k : Fin n) :
    pad ⟨2, ![a', n]⟩ ![0, 0] ![e, 0] ![0, 0] x v h hu (ix2 c' k) = x (ix2 c k) :=
  pad_apply_of_inside _ _ _ x v h hu _ _ fun ax => by
    match ax with
    | ⟨0, _⟩ => show c'.val = 0 + c.val * (0 + 1); omega
    | ⟨1, _⟩ => show k.val = 0 + k.val * (0 + 1); omega

end Cert.HostRowReads

end
-- ==== Proof.HostReads.lean ====
/-
  The arrays the kernel's windows stage, as the region finds them: each is written by a host operation before the
  call, and read here at an index as a function of the argument arrays.
    * the activations in the narrower float format: at the exact reals a change of format is the identity;
    * the row sums of the activations, kept as a column: entry `(r, ·)` is the sum over `k` of activation `(r, k)`
      (the sum starts from the zero word, which is the real 0);
    * scale · offset, scale, and bias, each laid out as one row: entry `(·, n)` is the vector's entry `n`.
-/
import proofs.«142768_j51453708206361_2_alg».proof.Proof.Gen.KernelIdeal.Frame
import proofs.«142768_j51453708206361_2_alg».proof.Proof.LibHostRowReads
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.DequantGemm

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ)

/-- The five argument arrays on core `c`, at their literal types: activations, integer weights, scales, offsets,
    biases. -/
abbrev act (c : Dev nD) : S64x4096.Idx → EReal := m ((c : Thread nD τ).loc main_arg0)
abbrev wgt (c : Dev nD) : S4096x14336.Idx → BitVec 32 := m ((c : Thread nD τ).loc main_arg1)
abbrev scl (c : Dev nD) : S14336.Idx → EReal := m ((c : Thread nD τ).loc main_arg2)
abbrev off (c : Dev nD) : S14336.Idx → EReal := m ((c : Thread nD τ).loc main_arg3)
abbrev bia (c : Dev nD) : S14336.Idx → EReal := m ((c : Thread nD τ).loc main_arg4)

/-- The activations the first window stages are the activations argument. -/
theorem V_act (c : Dev nD) : (V m c main_v0 : S64x4096.Idx → EReal) = act m c := by
  have e : (V m c main_v0 : S64x4096.Idx → EReal) = truncf (F := Ideal) .bf16 (act m c) bitsLt_bf16_f32 := by
    dsimp only [Gen.V, Gen.hostOps0]; after_results
  rw [e]; rfl

/-- The integer weights the second window stages are the weights argument. -/
theorem V_wgt (c : Dev nD) : (V m c main_arg1 : S4096x14336.Idx → BitVec 32) = wgt m c := V_main_arg1 m c

/-- The column of row sums: an entry in row `r` is the sum of row `r` of the activations. -/
theorem V_rowsum (c : Dev nD) (i : S64x1.Idx) (r : Fin 64) (hr : (i 0).val = r.val) :
    (V m c main_v2 : S64x1.Idx → EReal) i = ∑ k : Fin 4096, act m c (ix2 r k) := by
  have e : (V m c main_v2 : S64x1.Idx → EReal)
      = broadcastInDim S64x1 ![0] bcast_S64_S64x1_0 (Host.reduceAdd (F := Ideal) (act m c)
          (constant (F := Ideal) S_ .f32 0x00000000#32) reducesTo_S64x4096_S64_d1 h_S_) := by
    dsimp only [Gen.V, Gen.hostOps0]; after_results
  obtain ⟨p, u, rfl⟩ : ∃ (p : Fin 64) (u : Fin 1), i = ix2 p u := ⟨i 0, i 1, eq_ix2 i⟩
  obtain rfl : p = r := Fin.ext hr
  rw [e, Cert.HostRowReads.broadcastInDim_col_apply,
    Cert.HostRowReads.hostReduceAdd_row _ _ reducesTo_S64x4096_S64_d1 (by decide) h_S_ p,
    constant_apply, Ideal.ofBits_zero_f32, zero_add]

/-- The fused row scale · offset: an entry in column `n` is `scale n · offset n`. -/
theorem V_fused (c : Dev nD) (i : S1x14336.Idx) (n : Fin 14336) (hn : (i 1).val = n.val) :
    (V m c main_v4 : S1x14336.Idx → EReal) i = scl m c (ix1 n) * off m c (ix1 n) := by
  have e : (V m c main_v4 : S1x14336.Idx → EReal)
      = shapeCast S1x14336 (mulf (F := Ideal) (φ := .f32) (scl m c) (off m c)) shapeCasts_S14336_S1x14336 := by
    dsimp only [Gen.V, Gen.hostOps0]; after_results; try rfl
  obtain ⟨u, n', rfl⟩ : ∃ (u : Fin 1) (n' : Fin 14336), i = ix2 u n' := ⟨i 0, i 1, eq_ix2 i⟩
  obtain rfl : n' = n := Fin.ext hn
  rw [e, shapeCast_a_1a_apply, mulf_apply]

/-- The scale row: an entry in column `n` is `scale n`. -/
theorem V_scale (c : Dev nD) (i : S1x14336.Idx) (n : Fin 14336) (hn : (i 1).val = n.val) :
    (V m c main_v5 : S1x14336.Idx → EReal) i = scl m c (ix1 n) := by
  have e : (V m c main_v5 : S1x14336.Idx → EReal) = shapeCast S1x14336 (scl m c) shapeCasts_S14336_S1x14336 := by
    dsimp only [Gen.V, Gen.hostOps0]; after_results; try rfl
  obtain ⟨u, n', rfl⟩ : ∃ (u : Fin 1) (n' : Fin 14336), i = ix2 u n' := ⟨i 0, i 1, eq_ix2 i⟩
  obtain rfl : n' = n := Fin.ext hn
  rw [e, shapeCast_a_1a_apply]

/-- The bias row: an entry in column `n` is `bias n`. -/
theorem V_bias (c : Dev nD) (i : S1x14336.Idx) (n : Fin 14336) (hn : (i 1).val = n.val) :
    (V m c main_v6 : S1x14336.Idx → EReal) i = bia m c (ix1 n) := by
  have e : (V m c main_v6 : S1x14336.Idx → EReal) = shapeCast S1x14336 (bia m c) shapeCasts_S14336_S1x14336 := by
    dsimp only [Gen.V, Gen.hostOps0]; after_results; try rfl
  obtain ⟨u, n', rfl⟩ : ∃ (u : Fin 1) (n' : Fin 14336), i = ix2 u n' := ⟨i 0, i 1, eq_ix2 i⟩
  obtain rfl : n' = n := Fin.ext hn
  rw [e, shapeCast_a_1a_apply]

end Cert.DequantGemm

end
-- ==== Proof.Blocks.lean ====
/-
  From blocks to the whole array. The grid has 28 points; point `t` computes the 64 × 512 block of the result whose
  columns are `512·t … 512·t + 511`, from the whole activations and row sums (the same block at every point) and from
  the column blocks `t` of the weights, the scales, the fused scale·offset and the biases. The 28 column blocks tile
  the 64 × 14336 result, so after the run the result array is the kernel's arrangement `kerOut` of the argument
  arrays at every index.
-/
import proofs.«142768_j51453708206361_2_alg».proof.Proof.Gen.KernelIdeal.Value
import proofs.«142768_j51453708206361_2_alg».proof.Proof.KernelBlock
import proofs.«142768_j51453708206361_2_alg».proof.Proof.HostReads
import proofs.«142768_j51453708206361_2_alg».proof.Proof.DequantLaw

noncomputable section

namespace Cert.DequantGemm

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The block index of every window at every point: the activations and the row sums stay at block (0, 0); the
    weights, the three parameter rows and the result move to column block `t`. -/
theorem block_index : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- The grid has 28 points. -/
theorem point_lt (t : Fin cfg0.N) : t.val < 28 := lt_of_lt_of_eq t.isLt N_0

/-- The column of the result that column `q` of point `t`'s block is. -/
def col (t : Fin cfg0.N) (q : Fin 512) : Fin 14336 :=
  ⟨t.val * 512 + q.val, by have := point_lt t; have := q.isLt; omega⟩

/-! ## The input blocks at a point, read at coordinates -/

/-- The activation block is the whole activations at every point. -/
theorem blk_act (c : Dev nD) (t : Fin cfg0.N) (p : Fin 64) (k : Fin 4096) :
    iblk m c 0 t (ix2 p k) = act m c (ix2 p k) := by
  obtain ⟨e00, e01, -⟩ := block_index t
  show (V m c main_v0 : S64x4096.Idx → EReal) (((cfg0.win 0).blk t).view.emb (ix2 p k)) = _
  rw [V_act]
  refine congrArg (act m c) (funext fun a => Fin.ext ?_)
  match a with
  | ⟨0, _⟩ => show win0_0.index t (0 : Fin 2) * 64 + 1 * p.val = p.val; omega
  | ⟨1, _⟩ => show win0_0.index t (1 : Fin 2) * 4096 + 1 * k.val = k.val; omega

/-- The weight block at point `t` is the weights' columns `512·t …`. -/
theorem blk_wgt (c : Dev nD) (t : Fin cfg0.N) (k : Fin 4096) (q : Fin 512) :
    iblk m c 1 t (ix2 k q) = wgt m c (ix2 k (col t q)) := by
  obtain ⟨-, -, e10, e11, -⟩ := block_index t
  show (V m c main_arg1 : S4096x14336.Idx → BitVec 32) (((cfg0.win 1).blk t).view.emb (ix2 k q)) = _
  rw [V_wgt]
  refine congrArg (wgt m c) (funext fun a => Fin.ext ?_)
  match a with
  | ⟨0, _⟩ => show win0_1.index t (0 : Fin 2) * 4096 + 1 * k.val = k.val; omega
  | ⟨1, _⟩ => show win0_1.index t (1 : Fin 2) * 512 + 1 * q.val = t.val * 512 + q.val; omega

/-- The scale block at point `t`, column `q`. -/
theorem blk_scale (c : Dev nD) (t : Fin cfg0.N) (q : Fin 512) :
    iblk m c 2 t (ix2 (0 : Fin 1) q) = scl m c (ix1 (col t q)) := by
  obtain ⟨-, -, -, -, e20, e21, -⟩ := block_index t
  show (V m c main_v5 : S1x14336.Idx → EReal) (((cfg0.win 2).blk t).view.emb (ix2 (0 : Fin 1) q)) = _
  exact V_scale m c _ (col t q) (by show win0_2.index t (1 : Fin 2) * 512 + 1 * q.val = t.val * 512 + q.val; omega)

/-- The fused scale · offset block at point `t`, column `q`. -/
theorem blk_fused (c : Dev nD) (t : Fin cfg0.N) (q : Fin 512) :
    iblk m c 3 t (ix2 (0 : Fin 1) q) = scl m c (ix1 (col t q)) * off m c (ix1 (col t q)) := by
  obtain ⟨-, -, -, -, -, -, e30, e31, -⟩ := block_index t
  show (V m c main_v4 : S1x14336.Idx → EReal) (((cfg0.win 3).blk t).view.emb (ix2 (0 : Fin 1) q)) = _
  exact V_fused m c _ (col t q) (by show win0_3.index t (1 : Fin 2) * 512 + 1 * q.val = t.val * 512 + q.val; omega)

/-- The bias block at point `t`, column `q`. -/
theorem blk_bias (c : Dev nD) (t : Fin cfg0.N) (q : Fin 512) :
    iblk m c 4 t (ix2 (0 : Fin 1) q) = bia m c (ix1 (col t q)) := by
  obtain ⟨-, -, -, -, -, -, -, -, e40, e41, -⟩ := block_index t
  show (V m c main_v6 : S1x14336.Idx → EReal) (((cfg0.win 4).blk t).view.emb (ix2 (0 : Fin 1) q)) = _
  exact V_bias m c _ (col t q) (by show win0_4.index t (1 : Fin 2) * 512 + 1 * q.val = t.val * 512 + q.val; omega)

/-- The row-sum block is the whole column of row sums at every point. -/
theorem blk_rowsum (c : Dev nD) (t : Fin cfg0.N) (p : Fin 64) :
    iblk m c 5 t (ix2 p (0 : Fin 1)) = ∑ k : Fin 4096, act m c (ix2 p k) := by
  obtain ⟨-, -, -, -, -, -, -, -, -, -, e50, e51, -⟩ := block_index t
  show (V m c main_v2 : S64x1.Idx → EReal) (((cfg0.win 5).blk t).view.emb (ix2 p (0 : Fin 1))) = _
  exact V_rowsum m c _ p (by show win0_5.index t (0 : Fin 2) * 64 + 1 * p.val = p.val; omega)

/-! ## What a point writes back, the cover, the final array -/

/-- What point `t` writes back is block `t` of `kerOut` of the argument arrays. -/
theorem flushed_eq (c : Dev nD) (t : Fin cfg0.N) :
    (dats m 0 c).flushed 6 t
      = ((cfg0.win 6).blk t).view.read (Elt Ideal) (kerOut (act m c) (wgt m c) (scl m c) (off m c) (bia m c)) := by
  rw [Cert.KernelIdeal.Value.flushed6]
  unfold out0_6
  rw [View.canon_unit_zero origin_zero]
  simp only [View.ld_unit_zero (S := S64x4096) origin_zero, View.ld_unit_zero (S := S4096x512) origin_zero,
    View.ld_unit_zero (S := S1x512) origin_zero, View.ld_unit_zero (S := S64x1) origin_zero]
  obtain ⟨-, -, -, -, -, -, -, -, -, -, -, -, e60, e61⟩ := block_index t
  funext j
  obtain ⟨p, q, rfl⟩ : ∃ (p : Fin 64) (q : Fin 512), j = ix2 p q := ⟨j 0, j 1, eq_ix2 j⟩
  show k0_pay1 (F := Ideal) (iblk m c 0 t) (iblk m c 1 t) (iblk m c 2 t) (iblk m c 5 t) (iblk m c 3 t) (iblk m c 4 t) (ix2 p q)
    = kerAt (act m c) (wgt m c) (scl m c) (off m c) (bia m c) ((((cfg0.win 6).blk t).view.emb (ix2 p q)) 0)
        ((((cfg0.win 6).blk t).view.emb (ix2 p q)) 1)
  have hr : (((cfg0.win 6).blk t).view.emb (ix2 p q)) 0 = p :=
    Fin.ext (by show win0_6.index t (0 : Fin 2) * 64 + 1 * p.val = p.val; omega)
  have hc : (((cfg0.win 6).blk t).view.emb (ix2 p q)) 1 = col t q :=
    Fin.ext (by show win0_6.index t (1 : Fin 2) * 512 + 1 * q.val = t.val * 512 + q.val; omega)
  refine Eq.trans ?_ (congrArg₂ (kerAt (act m c) (wgt m c) (scl m c) (off m c) (bia m c)) hr.symm hc.symm)
  rw [pay_at (iblk m c 0 t) (iblk m c 1 t) (iblk m c 2 t) (iblk m c 3 t) (iblk m c 4 t) (iblk m c 5 t) p q,
    blk_scale m c t q, blk_fused m c t q, blk_bias m c t q, blk_rowsum m c t p]
  unfold kerAt
  refine congrArg (fun z : EReal => z * scl m c (ix1 (col t q))
      + (∑ k : Fin 4096, act m c (ix2 p k)) * (scl m c (ix1 (col t q)) * off m c (ix1 (col t q)))
      + bia m c (ix1 (col t q))) (Finset.sum_congr rfl fun k _ => ?_)
  rw [blk_act m c t p k, blk_wgt m c t k q]

/-- An index of the result is in point `t`'s block iff each coordinate is in the block's range on its axis. -/
theorem mem_blk (t : Fin cfg0.N) (i : S64x14336.Idx) :
    i ∈ ((cfg0.win 6).blk t).view.set
      ↔ ∀ a : Fin 2, win0_6.index t a * S64x512.size a ≤ (i a).val ∧ (i a).val < win0_6.index t a * S64x512.size a + S64x512.size a := by
  show i ∈ ((View.whole main_v7).slice (win0_6.rect t)).set ↔ _
  rw [View.set_slice_whole, Rect.mem_set_unit]
  exact Iff.rfl

/-- Every index of the result lies in some point's block: column `n` in the block of point `n / 512`. -/
theorem covered (i : S64x14336.Idx) :
    ∃ t : Fin cfg0.N, (cfg0.win 6).flush t = true ∧ i ∈ ((cfg0.win 6).blk t).view.set := by
  have hi0 : (i 0).val < 64 := (i 0).isLt
  have hi1 : (i 1).val < 14336 := (i 1).isLt
  let t : Fin cfg0.N := ⟨(i 1).val / 512, by rw [show cfg0.N = 28 from N_0]; omega⟩
  obtain ⟨-, -, -, -, -, -, -, -, -, -, -, -, e60, e61⟩ := block_index t
  have ht : t.val = (i 1).val / 512 := rfl
  refine ⟨t, flush0_6 t, ?_⟩
  rw [mem_blk]
  intro a
  match a with
  | ⟨0, _⟩ => show win0_6.index t (0 : Fin 2) * 64 ≤ (i 0).val ∧ (i 0).val < win0_6.index t (0 : Fin 2) * 64 + 64; omega
  | ⟨1, _⟩ => show win0_6.index t (1 : Fin 2) * 512 ≤ (i 1).val ∧ (i 1).val < win0_6.index t (1 : Fin 2) * 512 + 512; omega

/-- After the run the result array is `kerOut` of the argument arrays. -/
theorem final (c : Dev nD) :
    (dats m 0 c).arrAt 6 cfg0.N = kerOut (act m c) (wgt m c) (scl m c) (off m c) (bia m c) :=
  (dats m 0 c).arrAt_eq_of_cover 6 (kerOut (act m c) (wgt m c) (scl m c) (off m c) (bia m c))
    (fun t _ => flushed_eq m c t) covered

/-- The kernel's run: every weakly fair execution terminates with the result array at `kerOut` of the argument arrays
    and the arguments unchanged. -/
theorem kernel_run : θ_run defs (onTc (τ := τ) (main (F := Ideal))) ⟨m, fun _ => 0, ρ⟩ fun r => ∀ c : Dev nD,
      r.2.mem ((c : Thread nD τ).loc main_v7) = kerOut (act m c) (wgt m c) (scl m c) (off m c) (bia m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.DequantGemm

end
-- ==== Proof.lean ====
/-
  A weight-only quantized matrix product, `out = x · ((W + offset) · scale) + bias` with `x` of shape 64 × 4096,
  integer weights `W` of shape 4096 × 14336 and one scale, offset and bias per output column, computed two ways.

  The reference dequantizes every weight and contracts:
      out r n = ∑ₖ x r k · ((W k n + offset n) · scale n) + bias n.
  The kernel never dequantizes: per block of 512 columns it contracts `x` with the integer weights and applies the
  column's affine map to the 64 × 512 result,
      out r n = (∑ₖ x r k · W k n) · scale n + (∑ₖ x r k) · (scale n · offset n) + bias n,
  with the row sums `∑ₖ x r k` and the products `scale n · offset n` computed once before the blocks are visited.

  On the exact extended reals a change of float format is the identity and an integer converts to itself, so the two
  differ only by distributing `x r k` over `(W k n + offset n) · scale n` and pulling the column's constants out of
  the finite sum. That needs every `x`, `scale` and `offset` to be a real number — distributivity fails at the
  infinities — which is what the precondition says (Proof/FiniteInputs.lean); the law is Proof/DequantLaw.lean.

  The kernel's side: the body's stored value at a block coordinate (Proof/KernelBlock.lean), the staged arrays as
  functions of the arguments (Proof/HostReads.lean), and the 28 column blocks tiling the result (Proof/Blocks.lean)
  give the result array as `kerOut` of the arguments. The reference's side: its operations read at an index
  (Proof/RefReads.lean) give `refOut`. The two programs' frames are the generated ones, the reference's its run with
  the result dropped; nothing was rewritten by the idealization, so there is nothing to preserve.
-/
import proofs.«142768_j51453708206361_2_alg».proof.Defs
import proofs.«142768_j51453708206361_2_alg».proof.Proof.Gen.Kernel
import proofs.«142768_j51453708206361_2_alg».proof.Proof.Gen.Kernel.Frame
import proofs.«142768_j51453708206361_2_alg».proof.Proof.Gen.KernelIdeal
import proofs.«142768_j51453708206361_2_alg».proof.Proof.Gen.KernelIdeal.Frame
import proofs.«142768_j51453708206361_2_alg».proof.Proof.Gen.KernelIdeal.Value
import proofs.«142768_j51453708206361_2_alg».proof.Proof.Gen.ReferenceIdeal
import proofs.«142768_j51453708206361_2_alg».proof.Proof.Gen.ReferenceIdeal.Run
import proofs.«142768_j51453708206361_2_alg».proof.Proof.Gen.ReferenceIdeal.Read
import proofs.«142768_j51453708206361_2_alg».proof.Proof.Gen.Pre_finite_inputs
import proofs.«142768_j51453708206361_2_alg».proof.Proof.DequantLaw
import proofs.«142768_j51453708206361_2_alg».proof.Proof.FiniteInputs
import proofs.«142768_j51453708206361_2_alg».proof.Proof.RefReads
import proofs.«142768_j51453708206361_2_alg».proof.Proof.Blocks
import Idealize.ShloMosaic.Adequacy
import Idealize.ShloMosaic.Init

noncomputable section

namespace Cert.Proof

open Idealize.ShloMosaic Idealize.SL.Sem Cert.DequantGemm

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `kerOut` of the (agreeing) argument arrays: the kernel by its blocks,
    the reference because its `refOut` is `kerOut` on finite activations, scales and offsets. -/
theorem algebraic : Cert.algebraic_KernelIdeal_ReferenceIdeal := by
  intro m ρ m' ρ' hpre hagree
  refine ⟨fun c => kerOut (act m c) (wgt m c) (scl m c) (off m c) (bia m c), kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, ref_eq_refOut, (hagree c).1, (hagree c).2.1, (hagree c).2.2.1,
    (hagree c).2.2.2.1, (hagree c).2.2.2.2]
  obtain ⟨hx, hs, ho, -⟩ := finite_of_pre _ _ _ _ _ (hpre c)
  exact (kerOut_eq_refOut _ _ _ _ _ hx hs ho).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
